-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S3x128 : Shape := ⟨2, ![3, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S3x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S3x128 : Shape := ⟨2, ![3, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S2000x128 : Shape := ⟨2, ![2000, 128]⟩
abbrev S600000x128 : Shape := ⟨2, ![600000, 128]⟩
abbrev S2000x1 : Shape := ⟨2, ![2000, 1]⟩

abbrev nBuf : Space → Nat
  | .hbm => 65
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S3x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S128x128, .f32⟩
  | .hbm, ⟨24, _⟩ => ⟨S1x128, .f32⟩
  | .hbm, ⟨25, _⟩ => ⟨S128, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S1x128, .f32⟩
  | .hbm, ⟨43, _⟩ => ⟨S128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S1x128, .f32⟩
  | .hbm, ⟨62, _⟩ => ⟨S128, .f32⟩
  | .hbm, ⟨63, _⟩ => ⟨S50000x128, .f32⟩
  | .hbm, ⟨64, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128, .f32⟩
  | .local _ .vmem, ⟨3, _⟩ => ⟨S128x128, .f32⟩
  | .local _ .vmem, ⟨4, _⟩ => ⟨S128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  transposes_S128x128_S128x128_1_0 : S128x128.Transposes [1, 0] S128x128
  slices_S3x128_S1x128_0_0 : S3x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128_S1x128_1_0 : S3x128.Slices ![1, 0] S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  slices_S3x128_S1x128_2_0 : S3x128.Slices ![2, 0] S1x128
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30_1) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S3x128 : Shape := ⟨2, ![3, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S600000x128 : Shape := ⟨2, ![600000, 128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S3x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  bcast_S50000x1_S50000x128_0_1 : S50000x1.BroadcastsInDim S50000x128 (![0, 1] : Fin 2 → Fin S50000x128.rank)
  slices_S3x128_S1x128_1_0 : S3x128.Slices ![1, 0] S1x128
  slices_S3x128_S1x128_2_0 : S3x128.Slices ![2, 0] S1x128
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel program's run with its result named.  @main is eight segments: three stretches of host
  operations, then three kernel launches with a stretch of host operations before the second and the third.  Every
  weakly fair execution terminates, nothing faulting, and at the end every unscoped buffer of a core holds the last
  boundary's contents `W8`: the fold of the host stretches and of the launches' write-backs over the launch memory.
  Read at the result buffer (the second output of the third launch) this names the result; read at an argument it
  gives the argument back.
-/
import proofs.«104211_j15453292331333_1_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run_result : θ_run defs (onTc (τ := τ) (main (F := F))) ⟨m, fun _ => 0, ρ⟩ (fun r => ∀ c : Dev nD,
      r.2.mem ((c.tc : Thread nD τ).loc main_v45_1) = W8 m ρ c (Proc.devRef .tc main_v45_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Outcome

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.BodyValues.lean ====
/-
  The three kernel bodies read at an index, at the ideal values.  On a block of 2000 rows:
  the first body scales each row entry by one half and by the feature's diagonal weight, multiplies the row into the
  128 x 128 matrix (a sum over the 128 contracted features) and adds the bias of the output feature;
  the update bodies subtract from each entry the aggregated message times the row's degree factor times the feature's
  diagonal weight, and add a multiple of that difference to the running output.
  Every change of float format is the identity on the extended reals, and the matrix product into a zero accumulator is
  the plain sum.
-/
import proofs.«104211_j15453292331333_1_alg».proof.Proof.Gen.KernelIdeal.Skeleton
import proofs.«104211_j15453292331333_1_alg».proof.Proof.LibColumns
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.BodyValues

open Cert.KernelIdeal Cert.KernelIdeal.Gen Idealize.ShloMosaic Idealize.ShloMosaic.ValueIdx

/-- One feature row `[128]`, passed through its identity cast, made a `[1, 128]` row and spread over the 2000 rows of
    a block, reads at `(p, k)` the row's entry `k`. -/
theorem row_spread (v : FVec Ideal S128 .f32) (p : Fin 2000) (k : Fin 128) :
    broadcastTo S2000x128 (shapeCast S1x128 (shapeCast S128 v shapeCasts_S128_S128) shapeCasts_S128_S1x128)
      broadcasts_S1x128_S2000x128 (ix2 p k) = v (ix1 k) := by
  rw [broadcastTo_1b_ab_apply, shapeCast_a_1a_apply, shapeCast_self]

/-- The same without the identity cast (the bias row). -/
theorem row_spread' (v : FVec Ideal S128 .f32) (p : Fin 2000) (k : Fin 128) :
    broadcastTo S2000x128 (shapeCast S1x128 v shapeCasts_S128_S1x128) broadcasts_S1x128_S2000x128 (ix2 p k) = v (ix1 k) := by
  rw [broadcastTo_1b_ab_apply, shapeCast_a_1a_apply]

/-- The degree column `[2000, 1]` of a block, through its identity cast, spread over the 128 features, reads at
    `(p, q)` the column's entry of row `p`. -/
theorem col_spread (v : FVec Ideal S2000x1 .f32) (p : Fin 2000) (q : Fin 128) :
    broadcastTo S2000x128 (shapeCast S2000x1 v shapeCasts_S2000x1_S2000x1) broadcasts_S2000x1_S2000x128 (ix2 p q)
      = v (ix2 p (0 : Fin 1)) := by
  rw [broadcastTo_a1_ab_apply, shapeCast_self]

theorem dot_lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem dot_lhs1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dot_rhs0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dot_rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block's matrix product into the zero accumulator, at `(p, q)`: the sum over the contracted feature `k` of the
    left operand's `(p, k)` times the right operand's `(k, q)`. -/
theorem product_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact dot_lhs0 _ _
    | ⟨1, _⟩ => exact (dot_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_rhs0 _ _).trans hk
    | ⟨1, _⟩ => exact dot_rhs1 _ _)
  rw [el, er]

/-- THE FIRST BODY at `(p, q)` of a block. -/
theorem linear_at (x0 : Vec Ideal S2000x128 .f32) (x1 : Vec Ideal S128 .f32) (x2 : Vec Ideal S128x128 .f32)
    (x3 : Vec Ideal S128 .f32) (p : Fin 2000) (q : Fin 128) :
    k0_pay1 (F := Ideal) x0 x1 x2 x3 (ix2 p q)
      = (∑ k : Fin 128, ((x0 (ix2 p k) * Ideal.ofBits .f32 0x3F000000#32) * x1 (ix1 k)) * x2 (ix2 k q)) + x3 (ix1 q) := by
  unfold k0_pay1
  rw [addf_apply, product_at, row_spread']
  refine congrArg (· + x3 (ix1 q)) (Finset.sum_congr rfl fun k _ => ?_)
  rw [truncf_apply, truncf_apply, mulf_apply, mulf_apply, row_spread, shapeCast_self]
  rfl

/-- THE UPDATE BODIES' first store (the new features) at `(p, q)`. -/
theorem laplace_at1 (x0 x1 : Vec Ideal S2000x128 .f32) (x3 : Vec Ideal S2000x1 .f32) (x5 : Vec Ideal S128 .f32)
    (p : Fin 2000) (q : Fin 128) :
    k1_pay1 (F := Ideal) x0 x1 x3 x5 (ix2 p q)
      = x0 (ix2 p q) - (x1 (ix2 p q) * x3 (ix2 p (0 : Fin 1))) * x5 (ix1 q) := by
  unfold k1_pay1
  rw [subf_apply, mulf_apply, mulf_apply, row_spread, col_spread, shapeCast_self]

theorem laplace_at2 (x0 x2 : Vec Ideal S2000x128 .f32) (x4 : Vec Ideal S2000x1 .f32) (x6 : Vec Ideal S128 .f32)
    (p : Fin 2000) (q : Fin 128) :
    k2_pay1 (F := Ideal) x0 x2 x4 x6 (ix2 p q)
      = x0 (ix2 p q) - (x2 (ix2 p q) * x4 (ix2 p (0 : Fin 1))) * x6 (ix1 q) := by
  unfold k2_pay1
  rw [subf_apply, mulf_apply, mulf_apply, row_spread, col_spread, shapeCast_self, shapeCast_self]

/-- THE UPDATE BODIES' second store (the running output) at an index: the old output plus the step's coefficient times
    the new features. -/
theorem accum_at1 (x0 x1 : Vec Ideal S2000x128 .f32) (x3 : Vec Ideal S2000x1 .f32) (x5 : Vec Ideal S128 .f32)
    (x13 : Vec Ideal S2000x128 .f32) (j : S2000x128.Idx) :
    k1_pay2 (F := Ideal) x0 x1 x3 x5 x13 j
      = x13 j + Ideal.ofBits .f32 0xBF800000#32 * k1_pay1 (F := Ideal) x0 x1 x3 x5 j := by
  unfold k1_pay2
  rw [addf_apply, mulf_apply, shapeCast_self]
  rfl

theorem accum_at2 (x0 x2 : Vec Ideal S2000x128 .f32) (x4 : Vec Ideal S2000x1 .f32) (x6 : Vec Ideal S128 .f32)
    (x14 : Vec Ideal S2000x128 .f32) (j : S2000x128.Idx) :
    k2_pay2 (F := Ideal) x0 x2 x4 x6 x14 j
      = x14 j + Ideal.ofBits .f32 0x3F000000#32 * k2_pay1 (F := Ideal) x0 x2 x4 x6 j := by
  unfold k2_pay2
  rw [addf_apply, mulf_apply, shapeCast_self]
  rfl

end Cert.KernelIdeal.BodyValues

end
-- ==== Proof.Filter.lean ====
/-
  The specification.  The program filters node features over a graph with a three-term polynomial of the normalised
  Laplacian; its dense part is three stages, each one function of whole arrays, stated here index by index over the
  50000 x 128 feature array:

  * `linear`: the features scaled by a constant and by a per-feature diagonal weight, multiplied into a 128 x 128 matrix
    and shifted by a per-feature bias — at `(p, q)` the sum over `k` of `((x p k · θ) · dg k) · wt k q`, plus `b q`;
  * `laplace`: one Laplacian step — at `(p, q)`, `x p q − (a p q · d p) · dg q`, with `a` the aggregated messages, `d`
    the `[50000, 1]` column of inverse square roots of the degrees and `dg` the step's diagonal weights;
  * `accum`: the running output plus a coefficient times the new features.

  The graph aggregation between the stages (a gather along the edges' sources and a scatter-add onto their targets) is
  the same host computation in both programs and is carried as one opaque function of whole arrays.
-/
import Idealize.ShloMosaic.PureOps.Ideal
import Idealize.ShloMosaic.Lib.ValueIdx

noncomputable section

namespace Cert.Filter

open Idealize.ShloMosaic Idealize.ShloMosaic.ValueIdx

abbrev Nodes : Shape := ⟨2, ![50000, 128]⟩
abbrev Column : Shape := ⟨2, ![50000, 1]⟩
abbrev Feats : Shape := ⟨1, ![128]⟩
abbrev Square : Shape := ⟨2, ![128, 128]⟩

/-- The linear stage at row `p`, output feature `q`. -/
def linearAt (θ : EReal) (x : Nodes.Idx → EReal) (dg : Feats.Idx → EReal) (wt : Square.Idx → EReal) (b : Feats.Idx → EReal)
    (p : Fin 50000) (q : Fin 128) : EReal :=
  (∑ k : Fin 128, ((x (ix2 p k) * θ) * dg (ix1 k)) * wt (ix2 k q)) + b (ix1 q)

/-- The linear stage as one function of the whole arrays. -/
def linear (θ : EReal) (x : Nodes.Idx → EReal) (dg : Feats.Idx → EReal) (wt : Square.Idx → EReal) (b : Feats.Idx → EReal) :
    Nodes.Idx → EReal := fun i => linearAt θ x dg wt b (i 0) (i 1)

/-- One Laplacian step at row `p`, feature `q`. -/
def laplaceAt (x a : Nodes.Idx → EReal) (d : Column.Idx → EReal) (dg : Feats.Idx → EReal) (p : Fin 50000) (q : Fin 128) : EReal :=
  x (ix2 p q) - (a (ix2 p q) * d (ix2 p (0 : Fin 1))) * dg (ix1 q)

/-- One Laplacian step as one function of the whole arrays. -/
def laplace (x a : Nodes.Idx → EReal) (d : Column.Idx → EReal) (dg : Feats.Idx → EReal) : Nodes.Idx → EReal :=
  fun i => laplaceAt x a d dg (i 0) (i 1)

/-- The running output plus `θ` times the new features. -/
def accum (θ : EReal) (h f : Nodes.Idx → EReal) : Nodes.Idx → EReal := fun i => h i + θ * f i

theorem linear_ix2 (θ : EReal) (x dg wt b) (p : Fin 50000) (q : Fin 128) :
    linear θ x dg wt b (ix2 p q) = linearAt θ x dg wt b p q := rfl

theorem laplace_ix2 (x a d dg) (p : Fin 50000) (q : Fin 128) :
    laplace x a d dg (ix2 p q) = laplaceAt x a d dg p q := rfl

/-- Each stage is a function of its arrays: equal arrays give equal stages. -/
theorem linear_congr {θ : EReal} {x x' : Nodes.Idx → EReal} {dg dg' : Feats.Idx → EReal} {wt wt' : Square.Idx → EReal}
    {b b' : Feats.Idx → EReal} (hx : x = x') (hd : dg = dg') (hw : wt = wt') (hb : b = b') :
    linear θ x dg wt b = linear θ x' dg' wt' b' := by subst hx hd hw hb; rfl

theorem laplace_congr {x x' a a' : Nodes.Idx → EReal} {d d' : Column.Idx → EReal} {dg dg' : Feats.Idx → EReal}
    (hx : x = x') (ha : a = a') (hd : d = d') (hg : dg = dg') : laplace x a d dg = laplace x' a' d' dg' := by
  subst hx ha hd hg; rfl

theorem accum_congr {θ : EReal} {h h' f f' : Nodes.Idx → EReal} (hh : h = h') (hf : f = f') :
    accum θ h f = accum θ h' f' := by subst hh hf; rfl

end Cert.Filter

end
-- ==== Proof.LaunchLinear.lean ====
/-
  The first launch, from blocks to the array.  Its grid has 25 points; point `t` reads rows `2000 t … 2000 t + 1999` of the
  features, the whole diagonal row, the whole 128 x 128 matrix and the whole bias, and writes the same rows of the
  output.  Each written block is the block of ONE whole-array function, the linear stage of the arrays as the launch
  finds them; the 25 blocks tile the 50000 rows, so after the launch the output array is that function.
-/
import proofs.«104211_j15453292331333_1_alg».proof.Proof.Gen.KernelIdeal.Frame
import proofs.«104211_j15453292331333_1_alg».proof.Proof.BodyValues
import proofs.«104211_j15453292331333_1_alg».proof.Proof.Filter

set_option maxRecDepth 16384

noncomputable section

namespace Cert.KernelIdeal.LaunchLinear

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A store at the origin: its offset is the zero vector. -/
theorem zero2 : (![0, 0] : Fin 2 → Nat) = fun _ => 0 := funext fun a => by fin_cases a <;> rfl
theorem zero1 : (![0] : Fin 1 → Nat) = fun _ => 0 := funext fun a => by fin_cases a <;> rfl

/-! ## Launch 0: the linear stage, block by block -/

/-- The printed index maps of launch 0, decided over its 25 points: the features and the output sit at block `t` of the
    rows; the diagonal row, the matrix and the bias at their one block. -/
theorem points0 : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 ∧ t.val < 25 :=
  (by decide +kernel : ∀ t : Fin grid0.N, _)

theorem onto0 : ∀ q0 : Fin 25, ∃ t : Fin cfg0.N, win0_4.index t = ![q0.val, 0] :=
  (by decide +kernel : ∀ q0 : Fin 25, ∃ t : Fin grid0.N, win0_4.index t = ![q0.val, 0])

section
variable (c : Dev nD) (t : Fin cfg0.N) (p : Fin 2000) (q : Fin 128)

/-- Row `p` of block `t` is row `2000 t + p` of the array. -/
def row0 : Fin 50000 := ⟨t.val * 2000 + p.val, by have := (points0 t).2.2.2.2.2.2.2.2; omega⟩

theorem read0_0 (k : Fin 128) : iblk0 V c 0 t (ix2 p k) = V c main_arg0 (ix2 (row0 t p) k) := by
  obtain ⟨e0, e1, -⟩ := points0 t
  show V c main_arg0 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem read0_1 (k : Fin 128) : iblk0 V c 1 t (ix1 k) = V c main_v14 (ix1 k) := by
  obtain ⟨-, -, e0, -⟩ := points0 t
  show V c main_v14 (((cfg0.win 1).blk t).view.emb (ix1 k)) = _
  refine congrArg _ (funext fun a => Fin.ext ?_)
  match a with
  | ⟨0, _⟩ => show win0_1.index t (0 : Fin 1) * 128 + 1 * k.val = k.val; omega

theorem read0_2 (k : Fin 128) : iblk0 V c 2 t (ix2 k q) = V c main_v12 (ix2 k q) := by
  obtain ⟨-, -, -, e0, e1, -⟩ := points0 t
  show V c main_v12 (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read0_3 : iblk0 V c 3 t (ix1 q) = V c main_arg4 (ix1 q) := by
  obtain ⟨-, -, -, -, -, e0, -⟩ := points0 t
  show V c main_arg4 (((cfg0.win 3).blk t).view.emb (ix1 q)) = _
  refine congrArg _ (funext fun a => Fin.ext ?_)
  match a with
  | ⟨0, _⟩ => show win0_3.index t (0 : Fin 1) * 128 + 1 * q.val = q.val; omega

theorem place0 : ((cfg0.win 4).blk t).view.emb (ix2 p q) = ix2 (row0 t p) q := by
  obtain ⟨-, -, -, -, -, -, e0, e1, -⟩ := points0 t
  refine funext fun a => Fin.ext ?_
  match a with
  | ⟨0, _⟩ => show win0_4.index t (0 : Fin 2) * 2000 + 1 * p.val = t.val * 2000 + p.val; omega
  | ⟨1, _⟩ => show win0_4.index t (1 : Fin 2) * 128 + 1 * q.val = q.val; omega
end

section
variable (c : Dev nD) (t : Fin cfg0.N)

/-- The body's store on a block is the whole-array linear stage read at the block's place. -/
theorem block0 (j : S2000x128.Idx) :
    k0_pay1 (F := Ideal) (iblk0 V c 0 t) (iblk0 V c 1 t) (iblk0 V c 2 t) (iblk0 V c 3 t) j
      = Filter.linear (Ideal.ofBits .f32 0x3F000000#32) (V c main_arg0) (V c main_v14) (V c main_v12) (V c main_arg4)
          (((cfg0.win 4).blk t).view.emb j) := by
  obtain ⟨p, q, rfl⟩ : ∃ (p : Fin 2000) (q : Fin 128), j = ix2 p q := ⟨j 0, j 1, eq_ix2 j⟩
  rw [BodyValues.linear_at (iblk0 V c 0 t) (iblk0 V c 1 t) (iblk0 V c 2 t) (iblk0 V c 3 t) p q, place0, Filter.linear_ix2]
  unfold Filter.linearAt
  simp only [read0_0, read0_1, read0_2, read0_3]

/-- WHAT POINT `t` WRITES BACK is block `t` of the whole-array linear stage. -/
theorem flushed0 :
    (dat0 V c).flushed 4 t = ((cfg0.win 4).blk t).view.read (Elt Ideal)
      (Filter.linear (Ideal.ofBits .f32 0x3F000000#32) (V c main_arg0) (V c main_v14) (V c main_v12) (V c main_arg4)) := by
  show (cfg0.win 4).cut (grid0.coords t) ((dat0 V c).after 4 t) = _
  rw [after0_4]
  unfold out0_4
  rw [View.canon_unit_zero zero2]
  simp only [View.ld_unit_zero (S := S2000x128) zero2, View.ld_unit_zero (S := S128x128) zero2, View.ld_unit_zero (S := S128) zero1]
  funext j
  exact block0 V c t j

theorem mem_blk0 (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v15).slice (win0_4.rect t)).set ↔ _
  rw [View.set_slice_whole, Rect.mem_set_unit]
  exact Iff.rfl
end

theorem covered0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := onto0 ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- THE ARRAY AFTER LAUNCH 0: the whole-array linear stage of the arrays the launch finds. -/
theorem output_after0 (c : Dev nD) : (dat0 V c).arrAt 4 cfg0.N
      = Filter.linear (Ideal.ofBits .f32 0x3F000000#32) (V c main_arg0) (V c main_v14) (V c main_v12) (V c main_arg4) :=
  (dat0 V c).arrAt_eq_of_cover 4 _ (fun t _ => flushed0 V c t) covered0

end Cert.KernelIdeal.LaunchLinear

end
-- ==== Proof.LaunchStep1.lean ====
/-
  The second launch, from blocks to the arrays.  Point `t` of its 25 reads rows `2000 t … 2000 t + 1999` of the features,
  of the aggregated messages, of the degree column and of the running output, and the whole diagonal row; it writes the
  same rows of the new features and of the new running output.  Each written block is the block of one whole-array
  function (one Laplacian step; the running output plus minus one times it), and the blocks tile the rows.
-/
import proofs.«104211_j15453292331333_1_alg».proof.Proof.Gen.KernelIdeal.Frame
import proofs.«104211_j15453292331333_1_alg».proof.Proof.BodyValues
import proofs.«104211_j15453292331333_1_alg».proof.Proof.Filter

set_option maxRecDepth 16384

noncomputable section

namespace Cert.KernelIdeal.LaunchStep1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A store at the origin: its offset is the zero vector. -/
theorem zero2 : (![0, 0] : Fin 2 → Nat) = fun _ => 0 := funext fun a => by fin_cases a <;> rfl
theorem zero1 : (![0] : Fin 1 → Nat) = fun _ => 0 := funext fun a => by fin_cases a <;> rfl

/-! ## Launch 1: one Laplacian step and the running output, block by block -/

/-- The printed index maps of launch 1, decided over its 25 points: every row-blocked window sits at block `t` of the
    rows, the diagonal row at its one block. -/
theorem points1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 ∧ t.val < 25 :=
  (by decide +kernel : ∀ t : Fin grid1.N, _)

/-- Every block of rows is some point's, for either output. -/
theorem onto1_5 : ∀ q0 : Fin 25, ∃ t : Fin cfg1.N, win1_5.index t = ![q0.val, 0] :=
  (by decide +kernel : ∀ q0 : Fin 25, ∃ t : Fin grid1.N, win1_5.index t = ![q0.val, 0])
theorem onto1_6 : ∀ q0 : Fin 25, ∃ t : Fin cfg1.N, win1_6.index t = ![q0.val, 0] :=
  (by decide +kernel : ∀ q0 : Fin 25, ∃ t : Fin grid1.N, win1_6.index t = ![q0.val, 0])

section
variable (c : Dev nD) (t : Fin cfg1.N) (p : Fin 2000) (q : Fin 128)

/-- Row `p` of block `t` is row `2000 t + p` of the array. -/
def row1 : Fin 50000 := ⟨t.val * 2000 + p.val, by have := (points1 t).2.2.2.2.2.2.2.2.2.2.2.2.2; omega⟩

theorem read1_0 : iblk1 V c 0 t (ix2 p q) = V c main_arg0 (ix2 (row1 t p) q) := by
  obtain ⟨e0, e1, -⟩ := points1 t
  show V c main_arg0 (((cfg1.win 0).blk t).view.emb (ix2 p q)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * q.val = q.val; omega

theorem read1_1 : iblk1 V c 1 t (ix2 p q) = V c main_v27 (ix2 (row1 t p) q) := by
  obtain ⟨-, -, e0, e1, -⟩ := points1 t
  show V c main_v27 (((cfg1.win 1).blk t).view.emb (ix2 p q)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * q.val = q.val; omega

theorem read1_2 : iblk1 V c 2 t (ix2 p (0 : Fin 1)) = V c main_v11 (ix2 (row1 t p) (0 : Fin 1)) := by
  obtain ⟨-, -, -, -, e0, e1, -⟩ := points1 t
  show V c main_v11 (((cfg1.win 2).blk t).view.emb (ix2 p (0 : Fin 1))) = _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 1 + 1 * 0 = 0; omega

theorem read1_3 : iblk1 V c 3 t (ix1 q) = V c main_v29 (ix1 q) := by
  obtain ⟨-, -, -, -, -, -, e0, -⟩ := points1 t
  show V c main_v29 (((cfg1.win 3).blk t).view.emb (ix1 q)) = _
  refine congrArg _ (funext fun a => Fin.ext ?_)
  match a with
  | ⟨0, _⟩ => show win1_3.index t (0 : Fin 1) * 128 + 1 * q.val = q.val; omega

theorem read1_4 : iblk1 V c 4 t (ix2 p q) = V c main_v15 (ix2 (row1 t p) q) := by
  obtain ⟨-, -, -, -, -, -, -, e0, e1, -⟩ := points1 t
  show V c main_v15 (((cfg1.win 4).blk t).view.emb (ix2 p q)) = _
  refine congrArg _ (funext fun a => Fin.ext ?_)
  match a with
  | ⟨0, _⟩ => show win1_4.index t (0 : Fin 2) * 2000 + 1 * p.val = t.val * 2000 + p.val; omega
  | ⟨1, _⟩ => show win1_4.index t (1 : Fin 2) * 128 + 1 * q.val = q.val; omega

theorem place1_5 : ((cfg1.win 5).blk t).view.emb (ix2 p q) = ix2 (row1 t p) q := by
  obtain ⟨-, -, -, -, -, -, -, -, -, e0, e1, -⟩ := points1 t
  refine funext fun a => Fin.ext ?_
  match a with
  | ⟨0, _⟩ => show win1_5.index t (0 : Fin 2) * 2000 + 1 * p.val = t.val * 2000 + p.val; omega
  | ⟨1, _⟩ => show win1_5.index t (1 : Fin 2) * 128 + 1 * q.val = q.val; omega

theorem place1_6 : ((cfg1.win 6).blk t).view.emb (ix2 p q) = ix2 (row1 t p) q := by
  obtain ⟨-, -, -, -, -, -, -, -, -, -, -, e0, e1, -⟩ := points1 t
  refine funext fun a => Fin.ext ?_
  match a with
  | ⟨0, _⟩ => show win1_6.index t (0 : Fin 2) * 2000 + 1 * p.val = t.val * 2000 + p.val; omega
  | ⟨1, _⟩ => show win1_6.index t (1 : Fin 2) * 128 + 1 * q.val = q.val; omega

/-- The step's difference on a block is the whole-array step read at the block's place. -/
theorem step1_at :
    k1_pay1 (F := Ideal) (iblk1 V c 0 t) (iblk1 V c 1 t) (iblk1 V c 2 t) (iblk1 V c 3 t) (ix2 p q)
      = Filter.laplace (V c main_arg0) (V c main_v27) (V c main_v11) (V c main_v29) (ix2 (row1 t p) q) := by
  rw [BodyValues.laplace_at1 (iblk1 V c 0 t) (iblk1 V c 1 t) (iblk1 V c 2 t) (iblk1 V c 3 t) p q,
    read1_0, read1_1, read1_2, read1_3, Filter.laplace_ix2]
  rfl
end

section
variable (c : Dev nD) (t : Fin cfg1.N)

theorem block1_5 (j : S2000x128.Idx) :
    k1_pay1 (F := Ideal) (iblk1 V c 0 t) (iblk1 V c 1 t) (iblk1 V c 2 t) (iblk1 V c 3 t) j
      = Filter.laplace (V c main_arg0) (V c main_v27) (V c main_v11) (V c main_v29) (((cfg1.win 5).blk t).view.emb j) := by
  obtain ⟨p, q, rfl⟩ : ∃ (p : Fin 2000) (q : Fin 128), j = ix2 p q := ⟨j 0, j 1, eq_ix2 j⟩
  rw [place1_5, step1_at]

theorem block1_6 (j : S2000x128.Idx) :
    k1_pay2 (F := Ideal) (iblk1 V c 0 t) (iblk1 V c 1 t) (iblk1 V c 2 t) (iblk1 V c 3 t) (iblk1 V c 4 t) j
      = Filter.accum (Ideal.ofBits .f32 0xBF800000#32) (V c main_v15)
          (Filter.laplace (V c main_arg0) (V c main_v27) (V c main_v11) (V c main_v29)) (((cfg1.win 6).blk t).view.emb j) := by
  obtain ⟨p, q, rfl⟩ : ∃ (p : Fin 2000) (q : Fin 128), j = ix2 p q := ⟨j 0, j 1, eq_ix2 j⟩
  rw [BodyValues.accum_at1, place1_6, step1_at, read1_4]
  rfl

/-- WHAT POINT `t` WRITES BACK through the first output is block `t` of the whole-array step. -/
theorem flushed1_5 :
    (dat1 V c).flushed 5 t = ((cfg1.win 5).blk t).view.read (Elt Ideal)
      (Filter.laplace (V c main_arg0) (V c main_v27) (V c main_v11) (V c main_v29)) := by
  show (cfg1.win 5).cut (grid1.coords t) ((dat1 V c).after 5 t) = _
  rw [after1_5]
  unfold out1_5
  rw [View.canon_unit_zero zero2]
  simp only [View.ld_unit_zero (S := S2000x128) zero2, View.ld_unit_zero (S := S2000x1) zero2, View.ld_unit_zero (S := S128) zero1]
  funext j
  exact block1_5 V c t j

/-- WHAT POINT `t` WRITES BACK through the second output is block `t` of the running output's update. -/
theorem flushed1_6 :
    (dat1 V c).flushed 6 t = ((cfg1.win 6).blk t).view.read (Elt Ideal)
      (Filter.accum (Ideal.ofBits .f32 0xBF800000#32) (V c main_v15)
        (Filter.laplace (V c main_arg0) (V c main_v27) (V c main_v11) (V c main_v29))) := by
  show (cfg1.win 6).cut (grid1.coords t) ((dat1 V c).after 6 t) = _
  rw [after1_6]
  unfold out1_6
  rw [View.canon_unit_zero zero2]
  simp only [View.ld_unit_zero (S := S2000x128) zero2, View.ld_unit_zero (S := S2000x1) zero2, View.ld_unit_zero (S := S128) zero1]
  funext j
  exact block1_6 V c t j

/-- An index of the array is in point `t`'s block iff each coordinate is in the block's range on its axis. -/
theorem mem_blk1_5 (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v30_0).slice (win1_5.rect t)).set ↔ _
  rw [View.set_slice_whole, Rect.mem_set_unit]
  exact Iff.rfl
theorem mem_blk1_6 (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v30_1).slice (win1_6.rect t)).set ↔ _
  rw [View.set_slice_whole, Rect.mem_set_unit]
  exact Iff.rfl
end

/-- The 25 blocks of 2000 rows cover the array: row `r` is in the block of point `r / 2000`. -/
theorem covered1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto1_5 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega
theorem covered1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := onto1_6 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- THE ARRAYS AFTER LAUNCH 1: the new features are the whole-array Laplacian step of the arrays the launch finds, the
    new running output the old one plus the coefficient times them. -/
theorem features_after1 (c : Dev nD) : (dat1 V c).arrAt 5 cfg1.N
      = Filter.laplace (V c main_arg0) (V c main_v27) (V c main_v11) (V c main_v29) :=
  (dat1 V c).arrAt_eq_of_cover 5 _ (fun t _ => flushed1_5 V c t) covered1_5
theorem output_after1 (c : Dev nD) : (dat1 V c).arrAt 6 cfg1.N
      = Filter.accum (Ideal.ofBits .f32 0xBF800000#32) (V c main_v15)
          (Filter.laplace (V c main_arg0) (V c main_v27) (V c main_v11) (V c main_v29)) :=
  (dat1 V c).arrAt_eq_of_cover 6 _ (fun t _ => flushed1_6 V c t) covered1_6

end Cert.KernelIdeal.LaunchStep1

end
-- ==== Proof.LaunchStep2.lean ====
/-
  The third launch, from blocks to the arrays: the second launch's shape, fed the first step's features and running
  output and the second aggregation, with the coefficient one half.
-/
import proofs.«104211_j15453292331333_1_alg».proof.Proof.Gen.KernelIdeal.Frame
import proofs.«104211_j15453292331333_1_alg».proof.Proof.BodyValues
import proofs.«104211_j15453292331333_1_alg».proof.Proof.Filter

set_option maxRecDepth 16384

noncomputable section

namespace Cert.KernelIdeal.LaunchStep2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A store at the origin: its offset is the zero vector. -/
theorem zero2 : (![0, 0] : Fin 2 → Nat) = fun _ => 0 := funext fun a => by fin_cases a <;> rfl
theorem zero1 : (![0] : Fin 1 → Nat) = fun _ => 0 := funext fun a => by fin_cases a <;> rfl

/-! ## Launch 2: one Laplacian step and the running output, block by block -/

/-- The printed index maps of launch 2, decided over its 25 points: every row-blocked window sits at block `t` of the
    rows, the diagonal row at its one block. -/
theorem points2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 ∧ t.val < 25 :=
  (by decide +kernel : ∀ t : Fin grid2.N, _)

/-- Every block of rows is some point's, for either output. -/
theorem onto2_5 : ∀ q0 : Fin 25, ∃ t : Fin cfg2.N, win2_5.index t = ![q0.val, 0] :=
  (by decide +kernel : ∀ q0 : Fin 25, ∃ t : Fin grid2.N, win2_5.index t = ![q0.val, 0])
theorem onto2_6 : ∀ q0 : Fin 25, ∃ t : Fin cfg2.N, win2_6.index t = ![q0.val, 0] :=
  (by decide +kernel : ∀ q0 : Fin 25, ∃ t : Fin grid2.N, win2_6.index t = ![q0.val, 0])

section
variable (c : Dev nD) (t : Fin cfg2.N) (p : Fin 2000) (q : Fin 128)

/-- Row `p` of block `t` is row `2000 t + p` of the array. -/
def row2 : Fin 50000 := ⟨t.val * 2000 + p.val, by have := (points2 t).2.2.2.2.2.2.2.2.2.2.2.2.2; omega⟩

theorem read2_0 : iblk2 V c 0 t (ix2 p q) = V c main_v30_0 (ix2 (row2 t p) q) := by
  obtain ⟨e0, e1, -⟩ := points2 t
  show V c main_v30_0 (((cfg2.win 0).blk t).view.emb (ix2 p q)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * q.val = q.val; omega

theorem read2_1 : iblk2 V c 1 t (ix2 p q) = V c main_v42 (ix2 (row2 t p) q) := by
  obtain ⟨-, -, e0, e1, -⟩ := points2 t
  show V c main_v42 (((cfg2.win 1).blk t).view.emb (ix2 p q)) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * q.val = q.val; omega

theorem read2_2 : iblk2 V c 2 t (ix2 p (0 : Fin 1)) = V c main_v11 (ix2 (row2 t p) (0 : Fin 1)) := by
  obtain ⟨-, -, -, -, e0, e1, -⟩ := points2 t
  show V c main_v11 (((cfg2.win 2).blk t).view.emb (ix2 p (0 : Fin 1))) = _
  refine congrArg _ (funext fun a => Fin.ext ?_)
  match a with
  | ⟨0, _⟩ => show win2_2.index t (0 : Fin 2) * 2000 + 1 * p.val = t.val * 2000 + p.val; omega
  | ⟨1, _⟩ => show win2_2.index t (1 : Fin 2) * 1 + 1 * 0 = 0; omega

theorem read2_3 : iblk2 V c 3 t (ix1 q) = V c main_v44 (ix1 q) := by
  obtain ⟨-, -, -, -, -, -, e0, -⟩ := points2 t
  show V c main_v44 (((cfg2.win 3).blk t).view.emb (ix1 q)) = _
  refine congrArg _ (funext fun a => Fin.ext ?_)
  match a with
  | ⟨0, _⟩ => show win2_3.index t (0 : Fin 1) * 128 + 1 * q.val = q.val; omega

theorem read2_4 : iblk2 V c 4 t (ix2 p q) = V c main_v30_1 (ix2 (row2 t p) q) := by
  obtain ⟨-, -, -, -, -, -, -, e0, e1, -⟩ := points2 t
  show V c main_v30_1 (((cfg2.win 4).blk t).view.emb (ix2 p q)) = _
  refine congrArg _ (funext fun a => Fin.ext ?_)
  match a with
  | ⟨0, _⟩ => show win2_4.index t (0 : Fin 2) * 2000 + 1 * p.val = t.val * 2000 + p.val; omega
  | ⟨1, _⟩ => show win2_4.index t (1 : Fin 2) * 128 + 1 * q.val = q.val; omega

theorem place2_5 : ((cfg2.win 5).blk t).view.emb (ix2 p q) = ix2 (row2 t p) q := by
  obtain ⟨-, -, -, -, -, -, -, -, -, e0, e1, -⟩ := points2 t
  refine funext fun a => Fin.ext ?_
  match a with
  | ⟨0, _⟩ => show win2_5.index t (0 : Fin 2) * 2000 + 1 * p.val = t.val * 2000 + p.val; omega
  | ⟨1, _⟩ => show win2_5.index t (1 : Fin 2) * 128 + 1 * q.val = q.val; omega

theorem place2_6 : ((cfg2.win 6).blk t).view.emb (ix2 p q) = ix2 (row2 t p) q := by
  obtain ⟨-, -, -, -, -, -, -, -, -, -, -, e0, e1, -⟩ := points2 t
  refine funext fun a => Fin.ext ?_
  match a with
  | ⟨0, _⟩ => show win2_6.index t (0 : Fin 2) * 2000 + 1 * p.val = t.val * 2000 + p.val; omega
  | ⟨1, _⟩ => show win2_6.index t (1 : Fin 2) * 128 + 1 * q.val = q.val; omega

/-- The step's difference on a block is the whole-array step read at the block's place. -/
theorem step2_at :
    k2_pay1 (F := Ideal) (iblk2 V c 0 t) (iblk2 V c 1 t) (iblk2 V c 2 t) (iblk2 V c 3 t) (ix2 p q)
      = Filter.laplace (V c main_v30_0) (V c main_v42) (V c main_v11) (V c main_v44) (ix2 (row2 t p) q) := by
  rw [BodyValues.laplace_at2 (iblk2 V c 0 t) (iblk2 V c 1 t) (iblk2 V c 2 t) (iblk2 V c 3 t) p q,
    read2_0, read2_1, read2_2, read2_3, Filter.laplace_ix2]
  rfl
end

section
variable (c : Dev nD) (t : Fin cfg2.N)

theorem block2_5 (j : S2000x128.Idx) :
    k2_pay1 (F := Ideal) (iblk2 V c 0 t) (iblk2 V c 1 t) (iblk2 V c 2 t) (iblk2 V c 3 t) j
      = Filter.laplace (V c main_v30_0) (V c main_v42) (V c main_v11) (V c main_v44) (((cfg2.win 5).blk t).view.emb j) := by
  obtain ⟨p, q, rfl⟩ : ∃ (p : Fin 2000) (q : Fin 128), j = ix2 p q := ⟨j 0, j 1, eq_ix2 j⟩
  rw [place2_5, step2_at]

theorem block2_6 (j : S2000x128.Idx) :
    k2_pay2 (F := Ideal) (iblk2 V c 0 t) (iblk2 V c 1 t) (iblk2 V c 2 t) (iblk2 V c 3 t) (iblk2 V c 4 t) j
      = Filter.accum (Ideal.ofBits .f32 0x3F000000#32) (V c main_v30_1)
          (Filter.laplace (V c main_v30_0) (V c main_v42) (V c main_v11) (V c main_v44)) (((cfg2.win 6).blk t).view.emb j) := by
  obtain ⟨p, q, rfl⟩ : ∃ (p : Fin 2000) (q : Fin 128), j = ix2 p q := ⟨j 0, j 1, eq_ix2 j⟩
  rw [BodyValues.accum_at2, place2_6, step2_at, read2_4]
  rfl

/-- WHAT POINT `t` WRITES BACK through the first output is block `t` of the whole-array step. -/
theorem flushed2_5 :
    (dat2 V c).flushed 5 t = ((cfg2.win 5).blk t).view.read (Elt Ideal)
      (Filter.laplace (V c main_v30_0) (V c main_v42) (V c main_v11) (V c main_v44)) := by
  show (cfg2.win 5).cut (grid2.coords t) ((dat2 V c).after 5 t) = _
  rw [after2_5]
  unfold out2_5
  rw [View.canon_unit_zero zero2]
  simp only [View.ld_unit_zero (S := S2000x128) zero2, View.ld_unit_zero (S := S2000x1) zero2, View.ld_unit_zero (S := S128) zero1]
  funext j
  exact block2_5 V c t j

/-- WHAT POINT `t` WRITES BACK through the second output is block `t` of the running output's update. -/
theorem flushed2_6 :
    (dat2 V c).flushed 6 t = ((cfg2.win 6).blk t).view.read (Elt Ideal)
      (Filter.accum (Ideal.ofBits .f32 0x3F000000#32) (V c main_v30_1)
        (Filter.laplace (V c main_v30_0) (V c main_v42) (V c main_v11) (V c main_v44))) := by
  show (cfg2.win 6).cut (grid2.coords t) ((dat2 V c).after 6 t) = _
  rw [after2_6]
  unfold out2_6
  rw [View.canon_unit_zero zero2]
  simp only [View.ld_unit_zero (S := S2000x128) zero2, View.ld_unit_zero (S := S2000x1) zero2, View.ld_unit_zero (S := S128) zero1]
  funext j
  exact block2_6 V c t j

/-- An index of the array is in point `t`'s block iff each coordinate is in the block's range on its axis. -/
theorem mem_blk2_5 (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v45_0).slice (win2_5.rect t)).set ↔ _
  rw [View.set_slice_whole, Rect.mem_set_unit]
  exact Iff.rfl
theorem mem_blk2_6 (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v45_1).slice (win2_6.rect t)).set ↔ _
  rw [View.set_slice_whole, Rect.mem_set_unit]
  exact Iff.rfl
end

/-- The 25 blocks of 2000 rows cover the array: row `r` is in the block of point `r / 2000`. -/
theorem covered2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := onto2_5 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega
theorem covered2_6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := onto2_6 ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- THE ARRAYS AFTER LAUNCH 2: the new features are the whole-array Laplacian step of the arrays the launch finds, the
    new running output the old one plus the coefficient times them. -/
theorem features_after2 (c : Dev nD) : (dat2 V c).arrAt 5 cfg2.N
      = Filter.laplace (V c main_v30_0) (V c main_v42) (V c main_v11) (V c main_v44) :=
  (dat2 V c).arrAt_eq_of_cover 5 _ (fun t _ => flushed2_5 V c t) covered2_5
theorem output_after2 (c : Dev nD) : (dat2 V c).arrAt 6 cfg2.N
      = Filter.accum (Ideal.ofBits .f32 0x3F000000#32) (V c main_v30_1)
          (Filter.laplace (V c main_v30_0) (V c main_v42) (V c main_v11) (V c main_v44)) :=
  (dat2 V c).arrAt_eq_of_cover 6 _ (fun t _ => flushed2_6 V c t) covered2_6

end Cert.KernelIdeal.LaunchStep2

end
-- ==== Proof.Graph.lean ====
/-
  The host computations the kernel program runs around its launches, each as one function of whole arrays:
  the edge list's sources and targets (the two rows of the `[2, 600000]` index array), the in-degrees (ones scattered
  onto the targets), the column of their clipped inverse square roots, the per-step diagonal rows, the transposed weight
  matrix, and the graph aggregation — the features scaled row-wise by the degree column, gathered along the sources
  (negative indices wrapped) and scatter-added onto the targets.  Then the program's result as the composition of these
  with the three dense stages.
-/
import proofs.«104211_j15453292331333_1_alg».proof.Proof.Gen.KernelIdeal
import proofs.«104211_j15453292331333_1_alg».proof.Proof.Filter

noncomputable section

namespace Cert.KernelIdeal.Graph

open Cert.KernelIdeal Cert.KernelIdeal.Gen Idealize.ShloMosaic

abbrev Edges := (⟨S2x600000, .i32⟩ : BufTy).Contents (Elt Ideal)
abbrev EdgeEnds := (⟨S600000, .i32⟩ : BufTy).Contents (Elt Ideal)
abbrev NodeFeats := (⟨S50000x128, .f32⟩ : BufTy).Contents (Elt Ideal)
abbrev NodeColumn := (⟨S50000x1, .f32⟩ : BufTy).Contents (Elt Ideal)
abbrev FeatRow := (⟨S128, .f32⟩ : BufTy).Contents (Elt Ideal)
abbrev Diagonals := (⟨S3x128, .f32⟩ : BufTy).Contents (Elt Ideal)
abbrev Weights := (⟨S128x128, .f32⟩ : BufTy).Contents (Elt Ideal)

/-- The edges' source nodes: row 0 of the edge array. -/
def sources (e : Edges) : EdgeEnds :=
  shapeCast _ (extractStridedSlice S1x600000 ![0, 0] e slices_S2x600000_S1x600000_0_0) shapeCasts_S1x600000_S600000

/-- The edges' target nodes: row 1 of the edge array. -/
def targets (e : Edges) : EdgeEnds :=
  shapeCast _ (extractStridedSlice S1x600000 ![1, 0] e slices_S2x600000_S1x600000_1_0) shapeCasts_S1x600000_S600000

/-- The in-degrees: a one per edge, scatter-added onto the edge's target. -/
def degrees (e : Edges) : (⟨S50000, .f32⟩ : BufTy).Contents (Elt Ideal) :=
  Host.scatterAdd scatter_S50000_S600000x1_S600000_n_0_0_1
    (broadcastInDim S50000 ![] bcast_S_S50000 (constant (F := Ideal) S_ .f32 0x00000000#32))
    (broadcastInDim S600000x1 ![0] bcast_S600000_S600000x1_0 (targets e))
    (broadcastInDim S600000 ![] bcast_S_S600000 (constant (F := Ideal) S_ .f32 0x3F800000#32))

/-- The column of `max(1, degree) ^ (-1/2)`. -/
def degInv (e : Edges) : NodeColumn :=
  broadcastInDim S50000x1 ![0] bcast_S50000_S50000x1_0
    (Host.powf (maximumf (broadcastInDim S50000 ![] bcast_S_S50000 (id (constant (F := Ideal) S_ .f32 0x3F800000#32))) (degrees e))
      (broadcastInDim S50000 ![] bcast_S_S50000 (constant (F := Ideal) S_ .f32 0xBF000000#32)))

/-- The graph aggregation of features `x` with degree column `d` along edges `s → t`. -/
def aggregate (x : NodeFeats) (d : NodeColumn) (s t : EdgeEnds) : NodeFeats :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 t)
    (Host.gather gather_S50000x128_S600000x1_S600000x128_1_0_n_n_0_1_1128
      (mulf x (broadcastInDim S50000x128 ![0, 1] bcast_S50000x1_S50000x128_0_1 d))
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 50000#32))) s)))

/-- The diagonal weights of term `0`, `1`, `2`: a row of the `[3, 128]` array. -/
def diagRow0 (g : Diagonals) : FeatRow :=
  shapeCast _ (extractStridedSlice S1x128 ![0, 0] g slices_S3x128_S1x128_0_0) shapeCasts_S1x128_S128
def diagRow1 (g : Diagonals) : FeatRow :=
  shapeCast _ (extractStridedSlice S1x128 ![1, 0] g slices_S3x128_S1x128_1_0) shapeCasts_S1x128_S128
def diagRow2 (g : Diagonals) : FeatRow :=
  shapeCast _ (extractStridedSlice S1x128 ![2, 0] g slices_S3x128_S1x128_2_0) shapeCasts_S1x128_S128

/-- The weight matrix transposed. -/
def weightT (w : Weights) : Weights := transpose S128x128 [1, 0] w transposes_S128x128_S128x128_1_0

abbrev half : EReal := Ideal.ofBits .f32 0x3F000000#32
abbrev negOne : EReal := Ideal.ofBits .f32 0xBF800000#32

/-- The term-0 output. -/
def output0 (x : NodeFeats) (g : Diagonals) (w : Weights) (b : FeatRow) : NodeFeats :=
  Filter.linear half x (diagRow0 g) (weightT w) b

/-- The features after the first Laplacian step, and the output with its term added. -/
def features1 (x : NodeFeats) (e : Edges) (g : Diagonals) : NodeFeats :=
  Filter.laplace x (aggregate x (degInv e) (sources e) (targets e)) (degInv e) (diagRow1 g)
def output1 (x : NodeFeats) (e : Edges) (g : Diagonals) (w : Weights) (b : FeatRow) : NodeFeats :=
  Filter.accum negOne (output0 x g w b) (features1 x e g)

/-- The features after the second step, and the result. -/
def features2 (x : NodeFeats) (e : Edges) (g : Diagonals) : NodeFeats :=
  Filter.laplace (features1 x e g) (aggregate (features1 x e g) (degInv e) (sources e) (targets e)) (degInv e) (diagRow2 g)
def result (x : NodeFeats) (e : Edges) (g : Diagonals) (w : Weights) (b : FeatRow) : NodeFeats :=
  Filter.accum half (output1 x e g w b) (features2 x e g)

end Cert.KernelIdeal.Graph

end
-- ==== Proof.KernelResult.lean ====
/-
  The kernel program's result as a function of its arguments.  The buffer contents at each boundary of @main are read
  one boundary at a time, from the launch to the return: a stretch of host operations computes its results from the
  contents before it and leaves every other buffer alone; a launch leaves in each of its output arrays the whole-array
  function of the arrays it found (the three launch modules) and leaves every other buffer alone.  Carried through are
  the arguments, the edge ends, the degree column, and the previous launches' features and running output.
-/
import proofs.«104211_j15453292331333_1_alg».proof.Proof.Gen.KernelIdeal.Frame
import proofs.«104211_j15453292331333_1_alg».proof.Proof.LaunchLinear
import proofs.«104211_j15453292331333_1_alg».proof.Proof.LaunchStep1
import proofs.«104211_j15453292331333_1_alg».proof.Proof.LaunchStep2
import proofs.«104211_j15453292331333_1_alg».proof.Proof.Graph
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-! ## Before the first launch: the three host stretches over the launch memory -/

theorem at3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results

theorem at3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results

theorem at3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results

theorem at3_v1 : W3 m ρ c (Proc.devRef .tc main_v1) = (Graph.sources (m ((c : Thread nD τ).loc main_arg1))) := by
  show StableHlo.after hostOps0_2 (StableHlo.after hostOps0_1 (StableHlo.after hostOps0 (W0 m ρ c))) (Proc.devRef .tc main_v1) = _
  after_results
  rfl

theorem at3_v3 : W3 m ρ c (Proc.devRef .tc main_v3) = (Graph.targets (m ((c : Thread nD τ).loc main_arg1))) := by
  show StableHlo.after hostOps0_2 (StableHlo.after hostOps0_1 (StableHlo.after hostOps0 (W0 m ρ c))) (Proc.devRef .tc main_v3) = _
  after_results
  rfl

theorem at3_v11 : W3 m ρ c (Proc.devRef .tc main_v11) = (Graph.degInv (m ((c : Thread nD τ).loc main_arg1))) := by
  show StableHlo.after hostOps0_2 (StableHlo.after hostOps0_1 (StableHlo.after hostOps0 (W0 m ρ c))) (Proc.devRef .tc main_v11) = _
  after_results
  rfl

theorem at3_v12 : W3 m ρ c (Proc.devRef .tc main_v12) = (Graph.weightT (m ((c : Thread nD τ).loc main_arg3))) := by
  show StableHlo.after hostOps0_2 (StableHlo.after hostOps0_1 (StableHlo.after hostOps0 (W0 m ρ c))) (Proc.devRef .tc main_v12) = _
  after_results
  rfl

theorem at3_v14 : W3 m ρ c (Proc.devRef .tc main_v14) = (Graph.diagRow0 (m ((c : Thread nD τ).loc main_arg2))) := by
  show StableHlo.after hostOps0_2 (StableHlo.after hostOps0_1 (StableHlo.after hostOps0 (W0 m ρ c))) (Proc.devRef .tc main_v14) = _
  after_results
  rfl

/-! ## After the first launch -/

theorem at4_v15 : W4 m ρ c (Proc.devRef .tc main_v15) = (Graph.output0 (m ((c : Thread nD τ).loc main_arg0)) (m ((c : Thread nD τ).loc main_arg2)) (m ((c : Thread nD τ).loc main_arg3)) (m ((c : Thread nD τ).loc main_arg4))) := by
  unfold Graph.output0
  exact (W4_arr m ρ c 4).trans ((LaunchLinear.output_after0 (V3 m ρ) c).trans
    (Filter.linear_congr (at3_arg0 m ρ c) (at3_v14 m ρ c) (at3_v12 m ρ c) (at3_arg4 m ρ c)))

theorem at4_arg0 : W4 m ρ c (Proc.devRef .tc main_arg0) = (m ((c : Thread nD τ).loc main_arg0)) :=
  (W4_arr m ρ c 0).trans (((dat0 (V3 m ρ) c).arrAt_in 0 rfl _).trans ((A_eq0 (V3 m ρ) c 0).trans (at3_arg0 m ρ c)))

theorem at4_arg2 : W4 m ρ c (Proc.devRef .tc main_arg2) = (m ((c : Thread nD τ).loc main_arg2)) :=
  (W4_of_ne m ρ c main_arg2 (by decide)).trans (at3_arg2 m ρ c)

theorem at4_v1 : W4 m ρ c (Proc.devRef .tc main_v1) = (Graph.sources (m ((c : Thread nD τ).loc main_arg1))) :=
  (W4_of_ne m ρ c main_v1 (by decide)).trans (at3_v1 m ρ c)

theorem at4_v3 : W4 m ρ c (Proc.devRef .tc main_v3) = (Graph.targets (m ((c : Thread nD τ).loc main_arg1))) :=
  (W4_of_ne m ρ c main_v3 (by decide)).trans (at3_v3 m ρ c)

theorem at4_v11 : W4 m ρ c (Proc.devRef .tc main_v11) = (Graph.degInv (m ((c : Thread nD τ).loc main_arg1))) :=
  (W4_of_ne m ρ c main_v11 (by decide)).trans (at3_v11 m ρ c)

/-! ## Before the second launch: the first aggregation -/

theorem at5_arg0 : W5 m ρ c (Proc.devRef .tc main_arg0) = (m ((c : Thread nD τ).loc main_arg0)) := by
  show StableHlo.after hostOps1 (W4 m ρ c) (Proc.devRef .tc main_arg0) = _
  after_results
  exact at4_arg0 m ρ c

theorem at5_arg2 : W5 m ρ c (Proc.devRef .tc main_arg2) = (m ((c : Thread nD τ).loc main_arg2)) := by
  show StableHlo.after hostOps1 (W4 m ρ c) (Proc.devRef .tc main_arg2) = _
  after_results
  exact at4_arg2 m ρ c

theorem at5_v1 : W5 m ρ c (Proc.devRef .tc main_v1) = (Graph.sources (m ((c : Thread nD τ).loc main_arg1))) := by
  show StableHlo.after hostOps1 (W4 m ρ c) (Proc.devRef .tc main_v1) = _
  after_results
  exact at4_v1 m ρ c

theorem at5_v3 : W5 m ρ c (Proc.devRef .tc main_v3) = (Graph.targets (m ((c : Thread nD τ).loc main_arg1))) := by
  show StableHlo.after hostOps1 (W4 m ρ c) (Proc.devRef .tc main_v3) = _
  after_results
  exact at4_v3 m ρ c

theorem at5_v11 : W5 m ρ c (Proc.devRef .tc main_v11) = (Graph.degInv (m ((c : Thread nD τ).loc main_arg1))) := by
  show StableHlo.after hostOps1 (W4 m ρ c) (Proc.devRef .tc main_v11) = _
  after_results
  exact at4_v11 m ρ c

theorem at5_v15 : W5 m ρ c (Proc.devRef .tc main_v15) = (Graph.output0 (m ((c : Thread nD τ).loc main_arg0)) (m ((c : Thread nD τ).loc main_arg2)) (m ((c : Thread nD τ).loc main_arg3)) (m ((c : Thread nD τ).loc main_arg4))) := by
  show StableHlo.after hostOps1 (W4 m ρ c) (Proc.devRef .tc main_v15) = _
  after_results
  exact at4_v15 m ρ c

set_option maxHeartbeats 4000000 in
theorem at5_v27 : W5 m ρ c (Proc.devRef .tc main_v27) = (Graph.aggregate (m ((c : Thread nD τ).loc main_arg0)) (Graph.degInv (m ((c : Thread nD τ).loc main_arg1))) (Graph.sources (m ((c : Thread nD τ).loc main_arg1))) (Graph.targets (m ((c : Thread nD τ).loc main_arg1)))) := by
  show StableHlo.after hostOps1 (W4 m ρ c) (Proc.devRef .tc main_v27) = _
  after_results_simp
  rw [at4_arg0, at4_v11, at4_v1, at4_v3]
  rfl

theorem at5_v29 : W5 m ρ c (Proc.devRef .tc main_v29) = (Graph.diagRow1 (m ((c : Thread nD τ).loc main_arg2))) := by
  show StableHlo.after hostOps1 (W4 m ρ c) (Proc.devRef .tc main_v29) = _
  after_results
  rw [at4_arg2]
  rfl

/-! ## After the second launch -/

theorem at6_v30_0 : W6 m ρ c (Proc.devRef .tc main_v30_0) = (Graph.features1 (m ((c : Thread nD τ).loc main_arg0)) (m ((c : Thread nD τ).loc main_arg1)) (m ((c : Thread nD τ).loc main_arg2))) := by
  unfold Graph.features1
  exact (W6_arr m ρ c 5).trans ((LaunchStep1.features_after1 (V5 m ρ) c).trans
    (Filter.laplace_congr (at5_arg0 m ρ c) (at5_v27 m ρ c) (at5_v11 m ρ c) (at5_v29 m ρ c)))

theorem at6_v30_1 : W6 m ρ c (Proc.devRef .tc main_v30_1) = (Graph.output1 (m ((c : Thread nD τ).loc main_arg0)) (m ((c : Thread nD τ).loc main_arg1)) (m ((c : Thread nD τ).loc main_arg2)) (m ((c : Thread nD τ).loc main_arg3)) (m ((c : Thread nD τ).loc main_arg4))) := by
  unfold Graph.output1 Graph.features1
  exact (W6_arr m ρ c 6).trans ((LaunchStep1.output_after1 (V5 m ρ) c).trans
    (Filter.accum_congr (at5_v15 m ρ c) (Filter.laplace_congr (at5_arg0 m ρ c) (at5_v27 m ρ c) (at5_v11 m ρ c) (at5_v29 m ρ c))))

theorem at6_v11 : W6 m ρ c (Proc.devRef .tc main_v11) = (Graph.degInv (m ((c : Thread nD τ).loc main_arg1))) :=
  (W6_arr m ρ c 2).trans (((dat1 (V5 m ρ) c).arrAt_in 2 rfl _).trans ((A_eq1 (V5 m ρ) c 2).trans (at5_v11 m ρ c)))

theorem at6_arg2 : W6 m ρ c (Proc.devRef .tc main_arg2) = (m ((c : Thread nD τ).loc main_arg2)) :=
  (W6_of_ne m ρ c main_arg2 (by decide)).trans (at5_arg2 m ρ c)

theorem at6_v1 : W6 m ρ c (Proc.devRef .tc main_v1) = (Graph.sources (m ((c : Thread nD τ).loc main_arg1))) :=
  (W6_of_ne m ρ c main_v1 (by decide)).trans (at5_v1 m ρ c)

theorem at6_v3 : W6 m ρ c (Proc.devRef .tc main_v3) = (Graph.targets (m ((c : Thread nD τ).loc main_arg1))) :=
  (W6_of_ne m ρ c main_v3 (by decide)).trans (at5_v3 m ρ c)

/-! ## Before the third launch: the second aggregation -/

theorem at7_v11 : W7 m ρ c (Proc.devRef .tc main_v11) = (Graph.degInv (m ((c : Thread nD τ).loc main_arg1))) := by
  show StableHlo.after hostOps2 (W6 m ρ c) (Proc.devRef .tc main_v11) = _
  after_results
  exact at6_v11 m ρ c

theorem at7_v30_0 : W7 m ρ c (Proc.devRef .tc main_v30_0) = (Graph.features1 (m ((c : Thread nD τ).loc main_arg0)) (m ((c : Thread nD τ).loc main_arg1)) (m ((c : Thread nD τ).loc main_arg2))) := by
  show StableHlo.after hostOps2 (W6 m ρ c) (Proc.devRef .tc main_v30_0) = _
  after_results
  exact at6_v30_0 m ρ c

theorem at7_v30_1 : W7 m ρ c (Proc.devRef .tc main_v30_1) = (Graph.output1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W6 m ρ c) (Proc.devRef .tc main_v30_1) = _
  after_results
  exact at6_v30_1 m ρ c

set_option maxHeartbeats 4000000 in
theorem at7_v42 : W7 m ρ c (Proc.devRef .tc main_v42) = (Graph.aggregate (Graph.features1 (m ((c : Thread nD τ).loc main_arg0)) (m ((c : Thread nD τ).loc main_arg1)) (m ((c : Thread nD τ).loc main_arg2))) (Graph.degInv (m ((c : Thread nD τ).loc main_arg1))) (Graph.sources (m ((c : Thread nD τ).loc main_arg1))) (Graph.targets (m ((c : Thread nD τ).loc main_arg1)))) := by
  show StableHlo.after hostOps2 (W6 m ρ c) (Proc.devRef .tc main_v42) = _
  after_results_simp
  rw [at6_v30_0, at6_v11, at6_v1, at6_v3]
  rfl

theorem at7_v44 : W7 m ρ c (Proc.devRef .tc main_v44) = (Graph.diagRow2 (m ((c : Thread nD τ).loc main_arg2))) := by
  show StableHlo.after hostOps2 (W6 m ρ c) (Proc.devRef .tc main_v44) = _
  after_results
  rw [at6_arg2]
  rfl

/-! ## After the third launch -/

/-- THE RESULT: the last boundary's contents at the result buffer are the composed function of the launch memory's
    argument arrays. -/
theorem at8_v45_1 : W8 m ρ c (Proc.devRef .tc main_v45_1) = (Graph.result (m ((c : Thread nD τ).loc main_arg0)) (m ((c : Thread nD τ).loc main_arg1)) (m ((c : Thread nD τ).loc main_arg2)) (m ((c : Thread nD τ).loc main_arg3)) (m ((c : Thread nD τ).loc main_arg4))) := by
  unfold Graph.result Graph.features2
  exact (W8_arr m ρ c 6).trans ((LaunchStep2.output_after2 (V7 m ρ) c).trans
    (Filter.accum_congr (at7_v30_1 m ρ c) (Filter.laplace_congr (at7_v30_0 m ρ c) (at7_v42 m ρ c) (at7_v11 m ρ c) (at7_v44 m ρ c))))

end Cert.KernelIdeal.Boundaries

end
-- ==== Proof.ReferenceResult.lean ====
/-
  The reference's result is the same function of the arguments.  Its dense operations, read index by index through
  the generated stages, are the three stages of the specification: the scaled features times the transposed weights
  plus the bias (the reference scales from the left, the kernel from the right: the product of extended reals
  commutes); a Laplacian step; the running output plus a coefficient times the new features.  Its host computations
  on the graph — sources, targets, degree column, diagonal rows, transposed weights, the two aggregations — are the
  kernel program's own, operation for operation.
-/
import proofs.«104211_j15453292331333_1_alg».proof.Proof.Gen.ReferenceIdeal.Read
import proofs.«104211_j15453292331333_1_alg».proof.Proof.Graph
import proofs.«104211_j15453292331333_1_alg».proof.Proof.Filter

noncomputable section

namespace Cert.ReferenceIdeal.Bridge

open Cert.ReferenceIdeal Cert.ReferenceIdeal.Gen Cert.ReferenceIdeal.Read Idealize.ShloMosaic Idealize.ShloMosaic.ValueIdx

variable (a0 : (⟨S50000x128, .f32⟩ : BufTy).Contents (Elt Ideal)) (a1 : (⟨S2x600000, .i32⟩ : BufTy).Contents (Elt Ideal)) (a2 : (⟨S3x128, .f32⟩ : BufTy).Contents (Elt Ideal)) (a3 : (⟨S128x128, .f32⟩ : BufTy).Contents (Elt Ideal)) (a4 : (⟨S128, .f32⟩ : BufTy).Contents (Elt Ideal))

/-! ## The host computations on the graph are the kernel program's -/

theorem sources_eq : val_main_v1 (F := Ideal) a1 = Cert.KernelIdeal.Graph.sources a1 := rfl
theorem targets_eq : val_main_v3 (F := Ideal) a1 = Cert.KernelIdeal.Graph.targets a1 := rfl
theorem degInv_eq : val_main_v11 (F := Ideal) a1 = Cert.KernelIdeal.Graph.degInv a1 := rfl
theorem diagRow0_eq : val_main_v15 (F := Ideal) a2 = Cert.KernelIdeal.Graph.diagRow0 a2 := rfl
theorem diagRow1_eq : val_main_v39 (F := Ideal) a2 = Cert.KernelIdeal.Graph.diagRow1 a2 := rfl
theorem diagRow2_eq : val_main_v62 (F := Ideal) a2 = Cert.KernelIdeal.Graph.diagRow2 a2 := rfl
theorem weightT_eq : val_main_v19 (F := Ideal) a3 = Cert.KernelIdeal.Graph.weightT a3 := rfl

/-- The first aggregation: of the arguments' features. -/
theorem aggregate1_eq : val_main_v35 (F := Ideal) a0 a1
    = Cert.KernelIdeal.Graph.aggregate a0 (val_main_v11 (F := Ideal) a1) (val_main_v1 (F := Ideal) a1) (val_main_v3 (F := Ideal) a1) := rfl

/-- The second aggregation: of the features after the first step. -/
theorem aggregate2_eq : val_main_v58 (F := Ideal) a0 a1 a2
    = Cert.KernelIdeal.Graph.aggregate (val_main_v43 (F := Ideal) a0 a1 a2) (val_main_v11 (F := Ideal) a1) (val_main_v1 (F := Ideal) a1)
        (val_main_v3 (F := Ideal) a1) := rfl

/-! ## The dense stages, index by index -/

/-- The linear stage. -/
theorem linear_stage : val_main_v23 (F := Ideal) a0 a2 a3 a4
    = Filter.linear (Ideal.ofBits .f32 0x3F000000#32) a0 (val_main_v15 (F := Ideal) a2) (val_main_v19 (F := Ideal) a3) a4 := by
  funext i
  obtain ⟨p, q, rfl⟩ : ∃ (p : Fin 50000) (q : Fin 128), i = ix2 p q := ⟨i 0, i 1, eq_ix2 i⟩
  rw [val_main_v23_apply, val_main_v20_apply, val_main_v22_apply, val_main_v21_apply, Filter.linear_ix2]
  unfold Filter.linearAt
  have eb : idx_main_v21 (idx_main_v22 (ix2 p q)) = ix1 q := funext fun a => Fin.ext (by match a with | ⟨0, _⟩ => rfl)
  rw [eb, Ideal.addf_def]
  refine congrArg (· + a4 (ix1 q)) (Finset.sum_congr rfl fun k _ => ?_)
  have el : lidx_main_v20 (ix2 p q) k = ix2 p k := funext fun a => Fin.ext (by match a with | ⟨0, _⟩ => rfl | ⟨1, _⟩ => rfl)
  have er : ridx_main_v20 (ix2 p q) k = ix2 k q := funext fun a => Fin.ext (by match a with | ⟨0, _⟩ => rfl | ⟨1, _⟩ => rfl)
  have ed : idx_main_v16 (idx_main_v17 (ix2 p k)) = ix1 k := funext fun a => Fin.ext (by match a with | ⟨0, _⟩ => rfl)
  rw [el, er, val_main_v18_apply, val_main_v13_apply, val_main_v12_apply, val_main_cst_3_apply, val_main_v17_apply,
    val_main_v16_apply, ed, Ideal.mulf_def, Ideal.mulf_def, Ideal.ofBits_def,
    mul_comm (Ideal.ofBits .f32 0x3F000000#32) (a0 (ix2 p k))]

/-- The first Laplacian step. -/
theorem step1 : val_main_v43 (F := Ideal) a0 a1 a2
    = Filter.laplace a0 (val_main_v35 (F := Ideal) a0 a1) (val_main_v11 (F := Ideal) a1) (val_main_v39 (F := Ideal) a2) := by
  funext i
  obtain ⟨p, q, rfl⟩ : ∃ (p : Fin 50000) (q : Fin 128), i = ix2 p q := ⟨i 0, i 1, eq_ix2 i⟩
  rw [val_main_v43_apply, val_main_v42_apply, val_main_v37_apply, val_main_v36_apply, val_main_v41_apply,
    val_main_v40_apply, Filter.laplace_ix2]
  unfold Filter.laplaceAt
  have e1 : idx_main_v36 (ix2 p q) = ix2 p (0 : Fin 1) := funext fun a => Fin.ext (by match a with | ⟨0, _⟩ => rfl | ⟨1, _⟩ => rfl)
  have e2 : idx_main_v40 (idx_main_v41 (ix2 p q)) = ix1 q := funext fun a => Fin.ext (by match a with | ⟨0, _⟩ => rfl)
  rw [e1, e2]
  rfl

/-- The second Laplacian step. -/
theorem step2 : val_main_v66 (F := Ideal) a0 a1 a2
    = Filter.laplace (val_main_v43 (F := Ideal) a0 a1 a2) (val_main_v58 (F := Ideal) a0 a1 a2) (val_main_v11 (F := Ideal) a1)
        (val_main_v62 (F := Ideal) a2) := by
  funext i
  obtain ⟨p, q, rfl⟩ : ∃ (p : Fin 50000) (q : Fin 128), i = ix2 p q := ⟨i 0, i 1, eq_ix2 i⟩
  rw [val_main_v66_apply, val_main_v65_apply, val_main_v60_apply, val_main_v59_apply, val_main_v64_apply,
    val_main_v63_apply, Filter.laplace_ix2]
  unfold Filter.laplaceAt
  have e1 : idx_main_v59 (ix2 p q) = ix2 p (0 : Fin 1) := funext fun a => Fin.ext (by match a with | ⟨0, _⟩ => rfl | ⟨1, _⟩ => rfl)
  have e2 : idx_main_v63 (idx_main_v64 (ix2 p q)) = ix1 q := funext fun a => Fin.ext (by match a with | ⟨0, _⟩ => rfl)
  rw [e1, e2]
  rfl

/-- The running output after the first step: the linear stage's output minus the new features. -/
theorem accum1 : val_main_v46 (F := Ideal) a0 a1 a2 a3 a4
    = Filter.accum (Ideal.ofBits .f32 0xBF800000#32) (val_main_v23 (F := Ideal) a0 a2 a3 a4) (val_main_v43 (F := Ideal) a0 a1 a2) := by
  funext i
  rw [val_main_v46_apply, val_main_v45_apply, val_main_v44_apply, val_main_cst_6_apply]
  rfl

/-- The result: the running output plus one half of the features after the second step. -/
theorem accum2 : val_main_v69 (F := Ideal) a0 a1 a2 a3 a4
    = Filter.accum (Ideal.ofBits .f32 0x3F000000#32) (val_main_v46 (F := Ideal) a0 a1 a2 a3 a4) (val_main_v66 (F := Ideal) a0 a1 a2) := by
  funext i
  rw [val_main_v69_apply, val_main_v68_apply, val_main_v67_apply, val_main_cst_10_apply]
  rfl

/-! ## The composition -/

theorem output0_eq : val_main_v23 (F := Ideal) a0 a2 a3 a4 = Cert.KernelIdeal.Graph.output0 a0 a2 a3 a4 := by
  rw [linear_stage, diagRow0_eq, weightT_eq]; rfl

theorem features1_eq : val_main_v43 (F := Ideal) a0 a1 a2 = Cert.KernelIdeal.Graph.features1 a0 a1 a2 := by
  rw [step1, aggregate1_eq, degInv_eq, sources_eq, targets_eq, diagRow1_eq]; rfl

theorem output1_eq : val_main_v46 (F := Ideal) a0 a1 a2 a3 a4 = Cert.KernelIdeal.Graph.output1 a0 a1 a2 a3 a4 := by
  rw [accum1, output0_eq, features1_eq]; rfl

theorem features2_eq : val_main_v66 (F := Ideal) a0 a1 a2 = Cert.KernelIdeal.Graph.features2 a0 a1 a2 := by
  rw [step2, aggregate2_eq, features1_eq, degInv_eq, sources_eq, targets_eq, diagRow2_eq]; rfl

/-- THE REFERENCE'S RESULT is the kernel program's function of the arguments. -/
theorem result_eq : val_main_v69 (F := Ideal) a0 a1 a2 a3 a4 = Cert.KernelIdeal.Graph.result a0 a1 a2 a3 a4 := by
  rw [accum2, output1_eq, features2_eq]; rfl

end Cert.ReferenceIdeal.Bridge

end
-- ==== Proof.lean ====
/-
  The certificate's five claims.  The three frames: the two kernel programs' are the generated frame certificates; the
  reference has no kernel, and its frame is its generated run with the result dropped.  The idealization rewrote
  nothing, so `preserves` is trivial.  The value claim: at the ideal values the kernel program ends with its result
  buffer at one composed function of its arguments — the boundary contents read back launch by launch — and the
  reference ends at the same function of arguments that agree: its dense operations are the specification's three
  stages (up to the order of one product's factors) and its graph computations are the kernel program's own.
-/
import proofs.«104211_j15453292331333_1_alg».proof.Defs
import proofs.«104211_j15453292331333_1_alg».proof.Proof.Gen.Kernel
import proofs.«104211_j15453292331333_1_alg».proof.Proof.Gen.Kernel.Frame
import proofs.«104211_j15453292331333_1_alg».proof.Proof.Gen.KernelIdeal
import proofs.«104211_j15453292331333_1_alg».proof.Proof.Gen.KernelIdeal.Frame
import proofs.«104211_j15453292331333_1_alg».proof.Proof.Gen.ReferenceIdeal
import proofs.«104211_j15453292331333_1_alg».proof.Proof.Gen.ReferenceIdeal.Run
import proofs.«104211_j15453292331333_1_alg».proof.Proof.Gen.ReferenceIdeal.Read
import proofs.«104211_j15453292331333_1_alg».proof.Proof.Gen.Pre_finite_inputs
import proofs.«104211_j15453292331333_1_alg».proof.Proof.KernelRun
import proofs.«104211_j15453292331333_1_alg».proof.Proof.KernelResult
import proofs.«104211_j15453292331333_1_alg».proof.Proof.ReferenceResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result: the composed filter of the arguments. -/
theorem algebraic : Cert.algebraic_KernelIdeal_ReferenceIdeal := by
  intro m ρ m' ρ' _ hagree
  refine ⟨fun c => Cert.KernelIdeal.Graph.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Boundaries.at8_v45_1 m ρ c), (h c).2⟩)
      (Cert.KernelIdeal.Outcome.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v69_eq, Cert.ReferenceIdeal.Bridge.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
